-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S6144x2048 : Shape := ⟨2, ![6144, 2048]⟩
abbrev S6144 : Shape := ⟨1, ![6144]⟩
abbrev S8x2048 : Shape := ⟨2, ![8, 2048]⟩
abbrev S2048x8 : Shape := ⟨2, ![2048, 8]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S8x2048 : S_.BroadcastsInDim S8x2048 (![] : Fin 0 → Fin S8x2048.rank)
  reducesTo_S8x2048_S_d0_1 : S8x2048.ReducesTo [0, 1] S_
  bcast_S_S2048x8 : S_.BroadcastsInDim S2048x8 (![] : Fin 0 → Fin S2048x8.rank)
  reducesTo_S2048x8_S_d0_1 : S2048x8.ReducesTo [0, 1] S_

variable [Facts]

def fn_part1 {F : FTy → Type} [FloatOps F] (main_arg4 : FVec F S2048x8 .f32) (main_arg5 : FVec F S8x2048 .f32) (main_arg6 : FVec F S2048x8 .f32) (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  let main_v19 : FVec F S2048x8 .f32 := Host.absf main_arg4
  let main_cst_6 : FVec F S_ .f32 := constant S_ .f32 0x7F800000#32
  let main_v20 : FVec F S2048x8 .f32 := broadcastInDim S2048x8 ![] bcast_S_S2048x8 main_cst_6
  let main_v21 : IVec S2048x8 1 := cmpf .olt main_v19 main_v20
  let main_c_7 : IVec S_ 1 := constantI S_ 1 1#1
  let main_v22 : IVec S_ 1 := (fun x v => Host.reduce IntOp.andi x v reducesTo_S2048x8_S_d0_1 h_S_) main_v21 main_c_7
  let main_v23 : IVec S_ 1 := andi main_v18 main_v22
  let main_v24 : FVec F S8x2048 .f32 := Host.absf main_arg5
  let main_cst_8 : FVec F S_ .f32 := constant S_ .f32 0x7F800000#32
  let main_v25 : FVec F S8x2048 .f32 := broadcastInDim S8x2048 ![] bcast_S_S8x2048 main_cst_8
  let main_v26 : IVec S8x2048 1 := cmpf .olt main_v24 main_v25
  let main_c_9 : IVec S_ 1 := constantI S_ 1 1#1
  let main_v27 : IVec S_ 1 := (fun x v => Host.reduce IntOp.andi x v reducesTo_S8x2048_S_d0_1 h_S_) main_v26 main_c_9
  let main_v28 : IVec S_ 1 := andi main_v23 main_v27
  let main_v29 : FVec F S2048x8 .f32 := Host.absf main_arg6
  let main_cst_10 : FVec F S_ .f32 := constant S_ .f32 0x7F800000#32
  let main_v30 : FVec F S2048x8 .f32 := broadcastInDim S2048x8 ![] bcast_S_S2048x8 main_cst_10
  let main_v31 : IVec S2048x8 1 := cmpf .olt main_v29 main_v30
  let main_c_11 : IVec S_ 1 := constantI S_ 1 1#1
  let main_v32 : IVec S_ 1 := (fun x v => Host.reduce IntOp.andi x v reducesTo_S2048x8_S_d0_1 h_S_) main_v31 main_c_11
  let main_v33 : IVec S_ 1 := andi main_v28 main_v32
  main_v33

def fn {F : FTy → Type} [FloatOps F] (main_arg0 : FVec F S4x2048x2048 .f32) (main_arg1 : FVec F S6144x2048 .f32) (main_arg2 : FVec F S6144 .f32) (main_arg3 : FVec F S8x2048 .f32) (main_arg4 : FVec F S2048x8 .f32) (main_arg5 : FVec F S8x2048 .f32) (main_arg6 : FVec F S2048x8 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S8x2048 .f32 := Host.absf main_arg3
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_arg4 main_arg5 main_arg6 main_v13 main_v16
-- ==== Kernel.lean ====
abbrev S4x2048x2048 : Shape := ⟨3, ![4, 2048, 2048]⟩
abbrev S6144x2048 : Shape := ⟨2, ![6144, 2048]⟩
abbrev S6144 : Shape := ⟨1, ![6144]⟩
abbrev S8x2048 : Shape := ⟨2, ![8, 2048]⟩
abbrev S2048x8 : Shape := ⟨2, ![2048, 8]⟩
abbrev S_ : Shape := ⟨0, ![]⟩
abbrev S2048x16 : Shape := ⟨2, ![2048, 16]⟩
abbrev S6144x16 : Shape := ⟨2, ![6144, 16]⟩
abbrev S16x2048 : Shape := ⟨2, ![16, 2048]⟩
abbrev S8192x2048 : Shape := ⟨2, ![8192, 2048]⟩
abbrev S1x6144 : Shape := ⟨2, ![1, 6144]⟩
abbrev S8192x6144 : Shape := ⟨2, ![8192, 6144]⟩
abbrev S512x2048 : Shape := ⟨2, ![512, 2048]⟩
abbrev S768x2048 : Shape := ⟨2, ![768, 2048]⟩
abbrev S768x16 : Shape := ⟨2, ![768, 16]⟩
abbrev S1x768 : Shape := ⟨2, ![1, 768]⟩
abbrev S512x768 : Shape := ⟨2, ![512, 768]⟩
abbrev S4x2048x6144 : Shape := ⟨3, ![4, 2048, 6144]⟩

abbrev nBuf : Space → Nat
  | .hbm => 26
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S6144x2048, .f32⟩
  | .hbm, ⟨2, _⟩ => ⟨S6144, .f32⟩
  | .hbm, ⟨3, _⟩ => ⟨S8x2048, .f32⟩
  | .hbm, ⟨4, _⟩ => ⟨S2048x8, .f32⟩
  | .hbm, ⟨5, _⟩ => ⟨S8x2048, .f32⟩
  | .hbm, ⟨6, _⟩ => ⟨S2048x8, .f32⟩
  | .hbm, ⟨7, _⟩ => ⟨S_, .f32⟩
  | .hbm, ⟨8, _⟩ => ⟨S2048x8, .f32⟩
  | .hbm, ⟨9, _⟩ => ⟨S_, .f32⟩
  | .hbm, ⟨10, _⟩ => ⟨S2048x16, .f32⟩
  | .hbm, ⟨11, _⟩ => ⟨S_, .f32⟩
  | .hbm, ⟨12, _⟩ => ⟨S2048x8, .f32⟩
  | .hbm, ⟨13, _⟩ => ⟨S2048x8, .f32⟩
  | .hbm, ⟨14, _⟩ => ⟨S2048x16, .f32⟩
  | .hbm, ⟨15, _⟩ => ⟨S_, .f32⟩
  | .hbm, ⟨16, _⟩ => ⟨S2048x8, .f32⟩
  | .hbm, ⟨17, _⟩ => ⟨S2048x8, .f32⟩
  | .hbm, ⟨18, _⟩ => ⟨S2048x16, .f32⟩
  | .hbm, ⟨19, _⟩ => ⟨S6144x16, .f32⟩
  | .hbm, ⟨20, _⟩ => ⟨S16x2048, .f32⟩
  | .hbm, ⟨21, _⟩ => ⟨S8192x2048, .f32⟩
  | .hbm, ⟨22, _⟩ => ⟨S8192x2048, .bf16⟩
  | .hbm, ⟨23, _⟩ => ⟨S1x6144, .f32⟩
  | .hbm, ⟨24, _⟩ => ⟨S8192x6144, .f32⟩
  | .hbm, ⟨25, _⟩ => ⟨S4x2048x6144, .f32⟩
  | .local _ .vmem, ⟨0, _⟩ => ⟨S512x2048, .bf16⟩
  | .local _ .vmem, ⟨1, _⟩ => ⟨S512x2048, .bf16⟩
  | .local _ .vmem, ⟨2, _⟩ => ⟨S768x2048, .f32⟩
  | .local _ .vmem, ⟨3, _⟩ => ⟨S768x16, .f32⟩
  | .local _ .vmem, ⟨4, _⟩ => ⟨S768x16, .f32⟩
  | .local _ .vmem, ⟨5, _⟩ => ⟨S16x2048, .f32⟩
  | .local _ .vmem, ⟨6, _⟩ => ⟨S1x768, .f32⟩
  | .local _ .vmem, ⟨7, _⟩ => ⟨S1x768, .f32⟩
  | .local _ .vmem, ⟨8, _⟩ => ⟨S512x768, .f32⟩
  | .local _ .vmem, ⟨9, _⟩ => ⟨S512x768, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S768x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S2048x8 : S_.BroadcastsInDim S2048x8 (![] : Fin 0 → Fin S2048x8.rank)
  bcast_S_S2048x16 : S_.BroadcastsInDim S2048x16 (![] : Fin 0 → Fin S2048x16.rank)
  concatenates_S2048x8_S2048x8_S2048x16_d1 : Shape.Concatenates [S2048x8, S2048x8] S2048x16 1
  concatenates_S2048x16_S2048x16_S2048x16_S6144x16_d0 : Shape.Concatenates [S2048x16, S2048x16, S2048x16] S6144x16 0
  concatenates_S8x2048_S8x2048_S16x2048_d0 : Shape.Concatenates [S8x2048, S8x2048] S16x2048 0
  shapeCasts_S4x2048x2048_S8192x2048 : S4x2048x2048.ShapeCasts S8192x2048
  bitsLt_bf16_f32 : FTy.bits .bf16 < FTy.bits .f32
  shapeCasts_S6144_S1x6144 : S6144.ShapeCasts S1x6144
  inb_S768x16_S768x16_0_0 : ∀ a, (![0, 0] : Fin 2 → Nat) a + S768x16.size a ≤ S768x16.size a
  h_S768x16 : 0 < S768x16.numel
  shapeCasts_S768x16_S768x16 : S768x16.ShapeCasts S768x16
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S768x2048_S768x2048_0_0 : ∀ a, (![0, 0] : Fin 2 → Nat) a + S768x2048.size a ≤ S768x2048.size a
  h_S768x2048 : 0 < S768x2048.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  shapeCasts_S8192x6144_S4x2048x6144 : S8192x6144.ShapeCasts S4x2048x6144
  dot_S768x16_S16x2048_S768x2048_1_0_0_1_n_n_wf : DotDims.WF S768x16 S16x2048 S768x2048 [1] [0] [0] [1] [] []
  dot_S512x2048_S768x2048_S512x768_1_1_0_0_n_n_wf : DotDims.WF S512x2048 S768x2048 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2048.size a ≤ S6144x2048.size a
  hwx0_1 : ∀ i : grid0.Coords, EltTy.bits .f32 = 32 ∨ (Rect.block (s := S6144x2048) S768x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S768x16.size a ≤ S6144x16.size a
  hwx0_2 : ∀ i : grid0.Coords, EltTy.bits .f32 = 32 ∨ (Rect.block (s := S6144x16) S768x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x2048.size a
  hwx0_3 : ∀ i : grid0.Coords, EltTy.bits .f32 = 32 ∨ (Rect.block (s := S16x2048) S16x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x6144.size a
  hwx0_4 : ∀ i : grid0.Coords, EltTy.bits .f32 = 32 ∨ (Rect.block (s := S1x6144) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x768.size a ≤ S8192x6144.size a
  hwx0_5 : ∀ i : grid0.Coords, EltTy.bits .f32 = 32 ∨ (Rect.block (s := S8192x6144) S512x768.size (cc0_transform_5 i) (hinb0_5 i)).WholeWords (EltTy.packing .f32)

variable [Facts₀]

def dot_S768x16_S16x2048_S768x2048_1_0_0_1_n_n : DotDims S768x16 S16x2048 S768x2048 where
  lhsContracting := [1]
  rhsContracting := [0]
  lhsNonContracting := [0]
  rhsNonContracting := [1]
  lhsBatch := []
  rhsBatch := []
  wf := dot_S768x16_S16x2048_S768x2048_1_0_0_1_n_n_wf
def dot_S512x2048_S768x2048_S512x768_1_1_0_0_n_n : DotDims S512x2048 S768x2048 S512x768 where
  lhsContracting := [1]
  rhsContracting := [1]
  lhsNonContracting := [0]
  rhsNonContracting := [0]
  lhsBatch := []
  rhsBatch := []
  wf := dot_S512x2048_S768x2048_S512x768_1_1_0_0_n_n_wf

abbrev win0_0 : Pipeline.Window sig grid0 :=
  Pipeline.Window.ofSpec (Memref.whole main_v11) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S768x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S16x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S512x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S6144x2048 : Shape := ⟨2, ![6144, 2048]⟩
abbrev S6144 : Shape := ⟨1, ![6144]⟩
abbrev S8x2048 : Shape := ⟨2, ![8, 2048]⟩
abbrev S2048x8 : Shape := ⟨2, ![2048, 8]⟩
abbrev S2048x2048 : Shape := ⟨2, ![2048, 2048]⟩
abbrev S_ : Shape := ⟨0, ![]⟩
abbrev S4096x2048 : Shape := ⟨2, ![4096, 2048]⟩
abbrev S4x2048x6144 : Shape := ⟨3, ![4, 2048, 6144]⟩
abbrev S1x1x6144 : Shape := ⟨3, ![1, 1, 6144]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S6144x2048, .f32⟩
  | .hbm, ⟨2, _⟩ => ⟨S6144, .f32⟩
  | .hbm, ⟨3, _⟩ => ⟨S8x2048, .f32⟩
  | .hbm, ⟨4, _⟩ => ⟨S2048x8, .f32⟩
  | .hbm, ⟨5, _⟩ => ⟨S8x2048, .f32⟩
  | .hbm, ⟨6, _⟩ => ⟨S2048x8, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S4096x2048, .f32⟩
  | .hbm, ⟨16, _⟩ => ⟨S_, .f32⟩
  | .hbm, ⟨17, _⟩ => ⟨S2048x2048, .f32⟩
  | .hbm, ⟨18, _⟩ => ⟨S6144x2048, .f32⟩
  | .hbm, ⟨19, _⟩ => ⟨S6144x2048, .f32⟩
  | .hbm, ⟨20, _⟩ => ⟨S4x2048x6144, .f32⟩
  | .hbm, ⟨21, _⟩ => ⟨S1x1x6144, .f32⟩
  | .hbm, ⟨22, _⟩ => ⟨S4x2048x6144, .f32⟩
  | .hbm, ⟨23, _⟩ => ⟨S4x2048x6144, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  concatenates_S2048x2048_S2048x2048_S4096x2048_d0 : Shape.Concatenates [S2048x2048, S2048x2048] S4096x2048 0
  concatenates_S2048x2048_S4096x2048_S6144x2048_d0 : Shape.Concatenates [S2048x2048, S4096x2048] S6144x2048 0
  bcast_S6144_S1x1x6144_2 : S6144.BroadcastsInDim S1x1x6144 (![2] : Fin 1 → Fin S1x1x6144.rank)
  bcast_S1x1x6144_S4x2048x6144_0_1_2 : S1x1x6144.BroadcastsInDim S4x2048x6144 (![0, 1, 2] : Fin 3 → Fin S4x2048x6144.rank)
  dot_S2048x8_S8x2048_S2048x2048_1_0_0_1_n_n_wf : DotDims.WF S2048x8 S8x2048 S2048x2048 [1] [0] [0] [1] [] []
  dot_S4x2048x2048_S6144x2048_S4x2048x6144_2_1_01_0_n_n_wf : DotDims.WF S4x2048x2048 S6144x2048 S4x2048x6144 [2] [1] [0, 1] [0] [] []

variable [Facts₀]

def dot_S2048x8_S8x2048_S2048x2048_1_0_0_1_n_n : DotDims S2048x8 S8x2048 S2048x2048 where
  lhsContracting := [1]
  rhsContracting := [0]
  lhsNonContracting := [0]
  rhsNonContracting := [1]
  lhsBatch := []
  rhsBatch := []
  wf := dot_S2048x8_S8x2048_S2048x2048_1_0_0_1_n_n_wf
def dot_S4x2048x2048_S6144x2048_S4x2048x6144_2_1_01_0_n_n : DotDims S4x2048x2048 S6144x2048 S4x2048x6144 where
  lhsContracting := [2]
  rhsContracting := [1]
  lhsNonContracting := [0, 1]
  rhsNonContracting := [0]
  lhsBatch := []
  rhsBatch := []
  wf := dot_S4x2048x2048_S6144x2048_S4x2048x6144_2_1_01_0_n_n_wf

class Facts : Prop extends Facts₀ where

variable [Facts]
-- ==== Proof.FrameKernel.lean ====
/-
  The frame of `Kernel`: every weakly fair execution of @main terminates without a fault and leaves the seven argument
  arrays as they were, and — what the value claim reads — every array the launch writes back ends at the contents the
  per-point description below assigns it.

  @main is seventeen host operations (they build the zero-padded left factor [6144,16], the stacked right factor
  [16,2048], the input flattened to [8192,2048] and the bias as a row [1,6144]), one launch on the grid 8 × 16 and one
  reshape of its result. At the grid point (j, i) the body reads the five input blocks — rows 512·i.. of the flattened input,
  rows 768·j.. of the weight and of the left factor, the whole right factor, columns 768·j.. of the bias row — and
  stores ONE value over its whole output block: a function `blockOut` of the five blocks alone. So after the point the
  output's buffer holds `blockOut` of the blocks, each input buffer still holds its block, and nothing else is touched.
-/
import proofs.«148041_j74534862455241_2_alg».proof.Proof.Gen.Kernel.Launch
import proofs.«148041_j74534862455241_2_alg».proof.Proof.Gen.Kernel.Skeleton
import proofs.«148041_j74534862455241_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The contents of every buffer when the launch begins: the seventeen host operations applied, in order, to the
    initial memory. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates anything: each writes a buffer the signature already has. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host operations before the launch, the launch, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the launch reads and writes unscoped buffers of the core only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the six arrays the launch stages (it writes the final result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-- No host operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Argument 0 is no array of the launch and the reshape after it does not write it: it ends as it was. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
/-- Argument 2 is no array of the launch and the reshape after it does not write it: it ends as it was. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c
/-- Argument 3 is no array of the launch and the reshape after it does not write it: it ends as it was. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c
/-- Argument 4 is no array of the launch and the reshape after it does not write it: it ends as it was. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c
/-- Argument 5 is no array of the launch and the reshape after it does not write it: it ends as it was. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c
/-- Argument 6 is no array of the launch and the reshape after it does not write it: it ends as it was. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-! ## The blocks -/

/-- The block of array `w` that the grid point `t` works on, cut out of the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's buffer holds its block at every point, whether the point fetched it or an earlier one did (its block
    index has not moved since), provided the body leaves the buffer alone. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's buffer holds its block at every point, whether the point fetched it or an earlier one did (its block
    index has not moved since), provided the body leaves the buffer alone. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's buffer holds its block at every point, whether the point fetched it or an earlier one did (its block
    index has not moved since), provided the body leaves the buffer alone. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's buffer holds its block at every point, whether the point fetched it or an earlier one did (its block
    index has not moved since), provided the body leaves the buffer alone. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's buffer holds its block at every point, whether the point fetched it or an earlier one did (its block
    index has not moved since), provided the body leaves the buffer alone. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that ends with every staged array at what the launch wrote back and every other buffer as the reshape
    leaves it: the weight is a staged INPUT, so it ends as it began; the other six arguments are no array of the
    launch and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_arg0 (Pipeline.mem_restRefs_of main_arg0 (by decide) (by decide))).trans (W_main_arg0 m dats c),
      ((h c).1 1).trans (((dats 0 c).arrAt_in 1 rfl _).trans ((hA c 1).trans (V_main_arg1 m c))),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## What the body stores -/

/-- The body's six accesses: each is the whole of its buffer. -/
abbrev rectX : Rect S512x2048 := Rect.unit (s := S512x2048) ![0, 0] S512x2048.size inb_S512x2048_S512x2048_0_0
abbrev rectW : Rect S768x2048 := Rect.unit (s := S768x2048) ![0, 0] S768x2048.size inb_S768x2048_S768x2048_0_0
abbrev rectL : Rect S768x16 := Rect.unit (s := S768x16) ![0, 0] S768x16.size inb_S768x16_S768x16_0_0
abbrev rectR : Rect S16x2048 := Rect.unit (s := S16x2048) ![0, 0] S16x2048.size inb_S16x2048_S16x2048_0_0
abbrev rectB : Rect S1x768 := Rect.unit (s := S1x768) ![0, 0] S1x768.size inb_S1x768_S1x768_0_0
abbrev rectO : Rect S512x768 := Rect.unit (s := S512x768) ![0, 0] S512x768.size inb_S512x768_S512x768_0_0

/-- The output block after the body, as a function of the five input blocks (input rows `x`, weight rows `w`, left
    factor rows `l`, right factor `r`, bias columns `b`): its one store, over the whole block, of
    x · (w + l · r)ᵀ + b. -/
def blockOut (x : Vec F S512x2048 .bf16) (w : Vec F S768x2048 .f32) (l : Vec F S768x16 .f32) (r : Vec F S16x2048 .f32) (b : Vec F S1x768 .f32) :
    Vec F S512x768 .f32 :=
  View.canon [⟨rectO, k0_pay1 (View.ld l rectL) (View.ld r rectR) (View.ld w rectW) (View.ld x rectX) (View.ld b rectB)⟩]

/-- The one store covers the output block. -/
theorem blockOut_cover (p0 : Vec F S512x768 .f32) (y : S512x768.Idx) :
    ∃ pc ∈ ([⟨rectO, p0⟩] : List (View.Piece (Elt F) S512x768 .f32)), y ∈ pc.1.set :=
  View.cover_of_tiled [⟨rectO, p0⟩] S512x768.size (by rfl) y

/-! ## The body's triple -/

set_option maxHeartbeats 1000000 in
/-- On whole buffers, the five inputs' at contents `x w l r b` and the output's at anything, the body runs to its end
    with the inputs' buffers as they were and the output's at `blockOut x w l r b`. (It also loads the output buffer
    before storing into it; the loaded value is used nowhere.) -/
theorem sound_kernel (c : Dev nD) (E : Set ℕ) (i : grid0.Coords)
    (arg2 : Memref sig .tc .vmem S512x2048 .bf16) (harg2 : arg2.IsWhole) (arg3 : Memref sig .tc .vmem S768x2048 .f32) (harg3 : arg3.IsWhole)
    (arg4 : Memref sig .tc .vmem S768x16 .f32) (harg4 : arg4.IsWhole) (arg5 : Memref sig .tc .vmem S16x2048 .f32) (harg5 : arg5.IsWhole)
    (arg6 : Memref sig .tc .vmem S1x768 .f32) (harg6 : arg6.IsWhole) (arg7 : Memref sig .tc .vmem S512x768 .f32) (harg7 : arg7.IsWhole)
    (x : Vec F S512x2048 .bf16) (w : Vec F S768x2048 .f32) (l : Vec F S768x16 .f32) (r : Vec F S16x2048 .f32) (b : Vec F S1x768 .f32)
    (K : PUnit → sProp 𝕄) :
    iprop(owns (c : Thread nD τ) arg2 fullShare x ∗ owns (c : Thread nD τ) arg3 fullShare w ∗ owns (c : Thread nD τ) arg4 fullShare l
        ∗ owns (c : Thread nD τ) arg5 fullShare r ∗ owns (c : Thread nD τ) arg6 fullShare b ∗ (∃ d, owns (c : Thread nD τ) arg7 fullShare d)
        ∗ (iprop(owns (c : Thread nD τ) arg2 fullShare x ∗ owns (c : Thread nD τ) arg3 fullShare w ∗ owns (c : Thread nD τ) arg4 fullShare l
            ∗ owns (c : Thread nD τ) arg5 fullShare r ∗ owns (c : Thread nD τ) arg6 fullShare b
            ∗ owns (c : Thread nD τ) arg7 fullShare (blockOut x w l r b)) -∗ K ⟨⟩))
      ⊢ wp frame (wpE (defs₀ (F := F)) Variants.none c none) E (cc0__matmul_lora_kernel i arg2 harg2 arg3 harg3 arg4 harg4 arg5 harg5 arg6 harg6 arg7 harg7) K := by
  simp only [cc0__matmul_lora_kernel_eq_skeleton]; unfold cc0__matmul_lora_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (blockOut_cover _)

/-! ## The per-point description -/

/-- The arrays as the launch finds them; after the body at point `t` each input's buffer at its block and the
    output's at `blockOut` of the five blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
/-- What point `t` leaves in the output's buffer. -/
theorem after5 (c : Dev nD) (t : Fin cfg0.N) :
    (dats m 0 c).after 5 t = blockOut (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body at a point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the input buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and in every final state each staged array is at what the launch
    wrote back and every other unscoped buffer at what the reshape after the launch leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, faults nowhere, and the seven arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Around

end
-- ==== Proof.FrameKernelIdeal.lean ====
/-
  The frame of `KernelIdeal`: every weakly fair execution of @main terminates without a fault and leaves the seven argument
  arrays as they were, and — what the value claim reads — every array the launch writes back ends at the contents the
  per-point description below assigns it.

  @main is seventeen host operations (they build the zero-padded left factor [6144,16], the stacked right factor
  [16,2048], the input flattened to [8192,2048] and the bias as a row [1,6144]), one launch on the grid 8 × 16 and one
  reshape of its result. At the grid point (j, i) the body reads the five input blocks — rows 512·i.. of the flattened input,
  rows 768·j.. of the weight and of the left factor, the whole right factor, columns 768·j.. of the bias row — and
  stores ONE value over its whole output block: a function `blockOut` of the five blocks alone. So after the point the
  output's buffer holds `blockOut` of the blocks, each input buffer still holds its block, and nothing else is touched.
-/
import proofs.«148041_j74534862455241_2_alg».proof.Proof.Gen.KernelIdeal.Launch
import proofs.«148041_j74534862455241_2_alg».proof.Proof.Gen.KernelIdeal.Skeleton
import proofs.«148041_j74534862455241_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The contents of every buffer when the launch begins: the seventeen host operations applied, in order, to the
    initial memory. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates anything: each writes a buffer the signature already has. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host operations before the launch, the launch, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the launch reads and writes unscoped buffers of the core only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the six arrays the launch stages (it writes the final result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-- No host operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Argument 0 is no array of the launch and the reshape after it does not write it: it ends as it was. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
/-- Argument 2 is no array of the launch and the reshape after it does not write it: it ends as it was. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c
/-- Argument 3 is no array of the launch and the reshape after it does not write it: it ends as it was. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c
/-- Argument 4 is no array of the launch and the reshape after it does not write it: it ends as it was. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c
/-- Argument 5 is no array of the launch and the reshape after it does not write it: it ends as it was. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c
/-- Argument 6 is no array of the launch and the reshape after it does not write it: it ends as it was. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-! ## The blocks -/

/-- The block of array `w` that the grid point `t` works on, cut out of the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's buffer holds its block at every point, whether the point fetched it or an earlier one did (its block
    index has not moved since), provided the body leaves the buffer alone. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's buffer holds its block at every point, whether the point fetched it or an earlier one did (its block
    index has not moved since), provided the body leaves the buffer alone. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's buffer holds its block at every point, whether the point fetched it or an earlier one did (its block
    index has not moved since), provided the body leaves the buffer alone. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's buffer holds its block at every point, whether the point fetched it or an earlier one did (its block
    index has not moved since), provided the body leaves the buffer alone. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's buffer holds its block at every point, whether the point fetched it or an earlier one did (its block
    index has not moved since), provided the body leaves the buffer alone. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that ends with every staged array at what the launch wrote back and every other buffer as the reshape
    leaves it: the weight is a staged INPUT, so it ends as it began; the other six arguments are no array of the
    launch and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_arg0 (Pipeline.mem_restRefs_of main_arg0 (by decide) (by decide))).trans (W_main_arg0 m dats c),
      ((h c).1 1).trans (((dats 0 c).arrAt_in 1 rfl _).trans ((hA c 1).trans (V_main_arg1 m c))),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## What the body stores -/

/-- The body's six accesses: each is the whole of its buffer. -/
abbrev rectX : Rect S512x2048 := Rect.unit (s := S512x2048) ![0, 0] S512x2048.size inb_S512x2048_S512x2048_0_0
abbrev rectW : Rect S768x2048 := Rect.unit (s := S768x2048) ![0, 0] S768x2048.size inb_S768x2048_S768x2048_0_0
abbrev rectL : Rect S768x16 := Rect.unit (s := S768x16) ![0, 0] S768x16.size inb_S768x16_S768x16_0_0
abbrev rectR : Rect S16x2048 := Rect.unit (s := S16x2048) ![0, 0] S16x2048.size inb_S16x2048_S16x2048_0_0
abbrev rectB : Rect S1x768 := Rect.unit (s := S1x768) ![0, 0] S1x768.size inb_S1x768_S1x768_0_0
abbrev rectO : Rect S512x768 := Rect.unit (s := S512x768) ![0, 0] S512x768.size inb_S512x768_S512x768_0_0

/-- The output block after the body, as a function of the five input blocks (input rows `x`, weight rows `w`, left
    factor rows `l`, right factor `r`, bias columns `b`): its one store, over the whole block, of
    x · (w + l · r)ᵀ + b. -/
def blockOut (x : Vec F S512x2048 .bf16) (w : Vec F S768x2048 .f32) (l : Vec F S768x16 .f32) (r : Vec F S16x2048 .f32) (b : Vec F S1x768 .f32) :
    Vec F S512x768 .f32 :=
  View.canon [⟨rectO, k0_pay1 (View.ld l rectL) (View.ld r rectR) (View.ld w rectW) (View.ld x rectX) (View.ld b rectB)⟩]

/-- The one store covers the output block. -/
theorem blockOut_cover (p0 : Vec F S512x768 .f32) (y : S512x768.Idx) :
    ∃ pc ∈ ([⟨rectO, p0⟩] : List (View.Piece (Elt F) S512x768 .f32)), y ∈ pc.1.set :=
  View.cover_of_tiled [⟨rectO, p0⟩] S512x768.size (by rfl) y

/-! ## The body's triple -/

set_option maxHeartbeats 1000000 in
/-- On whole buffers, the five inputs' at contents `x w l r b` and the output's at anything, the body runs to its end
    with the inputs' buffers as they were and the output's at `blockOut x w l r b`. (It also loads the output buffer
    before storing into it; the loaded value is used nowhere.) -/
theorem sound_kernel (c : Dev nD) (E : Set ℕ) (i : grid0.Coords)
    (arg2 : Memref sig .tc .vmem S512x2048 .bf16) (harg2 : arg2.IsWhole) (arg3 : Memref sig .tc .vmem S768x2048 .f32) (harg3 : arg3.IsWhole)
    (arg4 : Memref sig .tc .vmem S768x16 .f32) (harg4 : arg4.IsWhole) (arg5 : Memref sig .tc .vmem S16x2048 .f32) (harg5 : arg5.IsWhole)
    (arg6 : Memref sig .tc .vmem S1x768 .f32) (harg6 : arg6.IsWhole) (arg7 : Memref sig .tc .vmem S512x768 .f32) (harg7 : arg7.IsWhole)
    (x : Vec F S512x2048 .bf16) (w : Vec F S768x2048 .f32) (l : Vec F S768x16 .f32) (r : Vec F S16x2048 .f32) (b : Vec F S1x768 .f32)
    (K : PUnit → sProp 𝕄) :
    iprop(owns (c : Thread nD τ) arg2 fullShare x ∗ owns (c : Thread nD τ) arg3 fullShare w ∗ owns (c : Thread nD τ) arg4 fullShare l
        ∗ owns (c : Thread nD τ) arg5 fullShare r ∗ owns (c : Thread nD τ) arg6 fullShare b ∗ (∃ d, owns (c : Thread nD τ) arg7 fullShare d)
        ∗ (iprop(owns (c : Thread nD τ) arg2 fullShare x ∗ owns (c : Thread nD τ) arg3 fullShare w ∗ owns (c : Thread nD τ) arg4 fullShare l
            ∗ owns (c : Thread nD τ) arg5 fullShare r ∗ owns (c : Thread nD τ) arg6 fullShare b
            ∗ owns (c : Thread nD τ) arg7 fullShare (blockOut x w l r b)) -∗ K ⟨⟩))
      ⊢ wp frame (wpE (defs₀ (F := F)) Variants.none c none) E (cc0__matmul_lora_kernel i arg2 harg2 arg3 harg3 arg4 harg4 arg5 harg5 arg6 harg6 arg7 harg7) K := by
  simp only [cc0__matmul_lora_kernel_eq_skeleton]; unfold cc0__matmul_lora_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (blockOut_cover _)

/-! ## The per-point description -/

/-- The arrays as the launch finds them; after the body at point `t` each input's buffer at its block and the
    output's at `blockOut` of the five blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
/-- What point `t` leaves in the output's buffer. -/
theorem after5 (c : Dev nD) (t : Fin cfg0.N) :
    (dats m 0 c).after 5 t = blockOut (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body at a point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the input buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and in every final state each staged array is at what the launch
    wrote back and every other unscoped buffer at what the reshape after the launch leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, faults nowhere, and the seven arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Around

end
-- ==== Proof.BlockValue.lean ====
/-
  The value the body stores, read at one entry of its 512 × 768 output block, on the extended reals.

  With x the 512 input rows, w the 768 weight rows, l the 768 rows of the left factor (16 columns), r the right
  factor (16 rows) and b the bias columns of the point, the stored entry (p, q) is

      ∑ₖ x[p,k] · ( w[q,k] + ∑ᵣ l[q,r] · r[r,k] )  +  b[0,q] :

  both matrix products start from a zero accumulator, so each is the plain sum over its contracted axis; the change of
  format between them is the identity on the extended reals; the bias row is repeated over the 512 rows.
-/
import proofs.«148041_j74534862455241_2_alg».proof.Proof.FrameKernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Cert.KernelIdeal.Around
open Idealize.ShloMosaic Idealize.ShloMosaic.TcCoe Idealize.ShloMosaic.ValueIdx Idealize.SL.Sem

theorem offsets_zero : (![0, 0] : Fin 2 → Nat) = fun _ => 0 := funext fun a => by fin_cases a <;> rfl

/-! ## The low-rank product l · r (contract l's columns with r's rows) -/

theorem lowRank_lhs0 (i : S768x2048.Idx) (k : dot_S768x16_S16x2048_S768x2048_1_0_0_1_n_n.contr.Idx) : (dot_S768x16_S16x2048_S768x2048_1_0_0_1_n_n.lhsIdx i k 0).val = (i 0).val := by
  unfold DotDims.lhsIdx
  rw [dif_neg (show ¬(0 : Fin S768x16.rank) ∈ dot_S768x16_S16x2048_S768x2048_1_0_0_1_n_n.lhsBatch by decide), dif_pos (show (0 : Fin S768x16.rank) ∈ dot_S768x16_S16x2048_S768x2048_1_0_0_1_n_n.lhsNonContracting by decide)]
  rfl
theorem lowRank_rhs1 (i : S768x2048.Idx) (k : dot_S768x16_S16x2048_S768x2048_1_0_0_1_n_n.contr.Idx) : (dot_S768x16_S16x2048_S768x2048_1_0_0_1_n_n.rhsIdx i k 1).val = (i 1).val := by
  unfold DotDims.rhsIdx
  rw [dif_neg (show ¬(1 : Fin S16x2048.rank) ∈ dot_S768x16_S16x2048_S768x2048_1_0_0_1_n_n.rhsBatch by decide), dif_pos (show (1 : Fin S16x2048.rank) ∈ dot_S768x16_S16x2048_S768x2048_1_0_0_1_n_n.rhsNonContracting by decide)]
  rfl

/-- Entry (q, k) of the product of the left factor's rows with the right factor: the sum over the 16 shared indices. -/
theorem lowRank_apply (l : FVec Ideal S768x16 .f32) (r : FVec Ideal S16x2048 .f32) (q : Fin 768) (k : Fin 2048) :
    matmul dot_S768x16_S16x2048_S768x2048_1_0_0_1_n_n none l r (constant (F := Ideal) S768x2048 .f32 0x00000000#32) (ix2 q k)
      = ∑ a : Fin 16, l (ix2 q a) * r (ix2 a k) := by
  simp only [matmul]
  rw [Ideal.matmul_constant_zero_apply, ← Equiv.sum_comp (ValueIdx.contrEquiv1 dot_S768x16_S16x2048_S768x2048_1_0_0_1_n_n 16 rfl rfl).symm]
  refine Finset.sum_congr rfl fun a _ => ?_
  have ha := ValueIdx.contrEquiv1_symm_val dot_S768x16_S16x2048_S768x2048_1_0_0_1_n_n 16 rfl rfl a
  have el : dot_S768x16_S16x2048_S768x2048_1_0_0_1_n_n.lhsIdx (ix2 q k) ((ValueIdx.contrEquiv1 dot_S768x16_S16x2048_S768x2048_1_0_0_1_n_n 16 rfl rfl).symm a) = ix2 q a := funext fun d => Fin.ext (by
    match d with
    | ⟨0, _⟩ => exact lowRank_lhs0 _ _
    | ⟨1, _⟩ => exact (dot_S768x16_S16x2048_S768x2048_1_0_0_1_n_n.lhsIdx_val_of_single rfl _ _).trans ha)
  have er : dot_S768x16_S16x2048_S768x2048_1_0_0_1_n_n.rhsIdx (ix2 q k) ((ValueIdx.contrEquiv1 dot_S768x16_S16x2048_S768x2048_1_0_0_1_n_n 16 rfl rfl).symm a) = ix2 a k := funext fun d => Fin.ext (by
    match d with
    | ⟨0, _⟩ => exact (dot_S768x16_S16x2048_S768x2048_1_0_0_1_n_n.rhsIdx_val_of_single rfl _ _).trans ha
    | ⟨1, _⟩ => exact lowRank_rhs1 _ _)
  rw [el, er]

/-! ## The main product x · wᵀ (contract the 2048 columns of both) -/

theorem main_lhs0 (i : S512x768.Idx) (k : dot_S512x2048_S768x2048_S512x768_1_1_0_0_n_n.contr.Idx) : (dot_S512x2048_S768x2048_S512x768_1_1_0_0_n_n.lhsIdx i k 0).val = (i 0).val := by
  unfold DotDims.lhsIdx
  rw [dif_neg (show ¬(0 : Fin S512x2048.rank) ∈ dot_S512x2048_S768x2048_S512x768_1_1_0_0_n_n.lhsBatch by decide), dif_pos (show (0 : Fin S512x2048.rank) ∈ dot_S512x2048_S768x2048_S512x768_1_1_0_0_n_n.lhsNonContracting by decide)]
  rfl
theorem main_rhs0 (i : S512x768.Idx) (k : dot_S512x2048_S768x2048_S512x768_1_1_0_0_n_n.contr.Idx) : (dot_S512x2048_S768x2048_S512x768_1_1_0_0_n_n.rhsIdx i k 0).val = (i 1).val := by
  unfold DotDims.rhsIdx
  rw [dif_neg (show ¬(0 : Fin S768x2048.rank) ∈ dot_S512x2048_S768x2048_S512x768_1_1_0_0_n_n.rhsBatch by decide), dif_pos (show (0 : Fin S768x2048.rank) ∈ dot_S512x2048_S768x2048_S512x768_1_1_0_0_n_n.rhsNonContracting by decide)]
  rfl

/-- Entry (p, q) of the product of the input rows with the transposed weight rows: the sum over the 2048 columns. -/
theorem main_apply (x : FVec Ideal S512x2048 .bf16) (w : FVec Ideal S768x2048 .bf16) (p : Fin 512) (q : Fin 768) :
    matmul dot_S512x2048_S768x2048_S512x768_1_1_0_0_n_n none x w (constant (F := Ideal) S512x768 .f32 0x00000000#32) (ix2 p q)
      = ∑ k : Fin 2048, x (ix2 p k) * w (ix2 q k) := by
  simp only [matmul]
  rw [Ideal.matmul_constant_zero_apply, ← Equiv.sum_comp (ValueIdx.contrEquiv1 dot_S512x2048_S768x2048_S512x768_1_1_0_0_n_n 2048 rfl rfl).symm]
  refine Finset.sum_congr rfl fun k _ => ?_
  have hk := ValueIdx.contrEquiv1_symm_val dot_S512x2048_S768x2048_S512x768_1_1_0_0_n_n 2048 rfl rfl k
  have el : dot_S512x2048_S768x2048_S512x768_1_1_0_0_n_n.lhsIdx (ix2 p q) ((ValueIdx.contrEquiv1 dot_S512x2048_S768x2048_S512x768_1_1_0_0_n_n 2048 rfl rfl).symm k) = ix2 p k := funext fun d => Fin.ext (by
    match d with
    | ⟨0, _⟩ => exact main_lhs0 _ _
    | ⟨1, _⟩ => exact (dot_S512x2048_S768x2048_S512x768_1_1_0_0_n_n.lhsIdx_val_of_single rfl _ _).trans hk)
  have er : dot_S512x2048_S768x2048_S512x768_1_1_0_0_n_n.rhsIdx (ix2 p q) ((ValueIdx.contrEquiv1 dot_S512x2048_S768x2048_S512x768_1_1_0_0_n_n 2048 rfl rfl).symm k) = ix2 q k := funext fun d => Fin.ext (by
    match d with
    | ⟨0, _⟩ => exact main_rhs0 _ _
    | ⟨1, _⟩ => exact (dot_S512x2048_S768x2048_S512x768_1_1_0_0_n_n.rhsIdx_val_of_single rfl _ _).trans hk)
  rw [el, er]

/-! ## The stored value -/

/-- The body's arithmetic at entry (p, q). -/
theorem pay_apply (l : Vec Ideal S768x16 .f32) (r : Vec Ideal S16x2048 .f32) (w : Vec Ideal S768x2048 .f32) (x : Vec Ideal S512x2048 .bf16)
    (b : Vec Ideal S1x768 .f32) (p : Fin 512) (q : Fin 768) :
    k0_pay1 (F := Ideal) l r w x b (ix2 p q)
      = (∑ k : Fin 2048, x (ix2 p k) * (w (ix2 q k) + ∑ a : Fin 16, l (ix2 q a) * r (ix2 a k))) + b (ix2 (0 : Fin 1) q) := by
  unfold k0_pay1
  simp only [shapeCast_self]
  rw [addf_apply, broadcastTo_1b_ab_apply, main_apply]
  refine congrArg (· + b (ix2 (0 : Fin 1) q)) (Finset.sum_congr rfl fun k _ => ?_)
  rw [truncf_apply, addf_apply, lowRank_apply]

/-- The output block after the body, at entry (p, q). -/
theorem blockOut_apply (x : Vec Ideal S512x2048 .bf16) (w : Vec Ideal S768x2048 .f32) (l : Vec Ideal S768x16 .f32) (r : Vec Ideal S16x2048 .f32)
    (b : Vec Ideal S1x768 .f32) (p : Fin 512) (q : Fin 768) :
    blockOut (F := Ideal) x w l r b (ix2 p q)
      = (∑ k : Fin 2048, x (ix2 p k) * (w (ix2 q k) + ∑ a : Fin 16, l (ix2 q a) * r (ix2 a k))) + b (ix2 (0 : Fin 1) q) := by
  unfold blockOut
  rw [View.canon_unit_zero offsets_zero]
  simp only [View.ld_unit_zero (S := S768x16) offsets_zero, View.ld_unit_zero (S := S16x2048) offsets_zero,
    View.ld_unit_zero (S := S768x2048) offsets_zero, View.ld_unit_zero (S := S512x2048) offsets_zero,
    View.ld_unit_zero (S := S1x768) offsets_zero]
  exact pay_apply l r w x b p q

end Cert.KernelIdeal.BlockValue

end
-- ==== Proof.LaunchValue.lean ====
/-
  From blocks to the array: what the launch leaves in its result array [8192, 6144].

  Write X [8192,2048] for the flattened input, Wt [6144,2048] for the weight, L [6144,16] and R [16,2048] for the two
  low-rank factors and Bv [1,6144] for the bias row, all as the launch finds them. The grid point (j, i) works on rows
  512·i.. of X, rows 768·j.. of Wt and of L, the whole of R, columns 768·j.. of Bv, and writes rows 512·i.., columns
  768·j.. of the result. Its stored entry (p, q) is therefore entry (512·i + p, 768·j + q) of

      launchOut[u, o] = ∑ₖ X[u,k] · ( Wt[o,k] + ∑ₐ L[o,a] · R[a,k] ) + Bv[0,o],

  and since the 16 × 8 output blocks tile the array, the array ends as `launchOut`.
-/
import proofs.«148041_j74534862455241_2_alg».proof.Proof.BlockValue

set_option maxRecDepth 16384

noncomputable section

namespace Cert.KernelIdeal.LaunchValue

open Cert.KernelIdeal Cert.KernelIdeal.Gen Cert.KernelIdeal.Around Cert.KernelIdeal.BlockValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array as one function of the five staged arrays. -/
def launchOut (X : S8192x2048.Idx → EReal) (Wt : S6144x2048.Idx → EReal) (L : S6144x16.Idx → EReal) (R : S16x2048.Idx → EReal)
    (Bv : S1x6144.Idx → EReal) : S8192x6144.Idx → EReal :=
  fun j => (∑ k : Fin 2048, X (ix2 (j 0) k) * (Wt (ix2 (j 1) k) + ∑ a : Fin 16, L (ix2 (j 1) a) * R (ix2 a k))) + Bv (ix2 (0 : Fin 1) (j 1))

/-- The block indices over the grid: the input rows move with the output's rows, the weight rows, the left factor's rows
    and the bias columns with the output's columns, the right factor does not move; the output's block indices range
    over 16 × 8. -/
theorem index_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = win0_5.index t (1 : Fin 2)
    ∧ win0_5.index t (0 : Fin 2) ≤ 15 ∧ win0_5.index t (1 : Fin 2) ≤ 7 :=
  (by decide +kernel : ∀ t : Fin grid0.N, _)

/-- Every one of the 16 × 8 output blocks is some point's. -/
theorem index_onto : ∀ (q0 : Fin 16) (q1 : Fin 8), ∃ t : Fin cfg0.N, win0_5.index t = ![q0.val, q1.val] :=
  (by decide +kernel : ∀ (q0 : Fin 16) (q1 : Fin 8), ∃ t : Fin grid0.N, win0_5.index t = ![q0.val, q1.val])

/-- The entry of the result array that entry (p, q) of point `t`'s output block is. -/
abbrev outIdx (t : Fin cfg0.N) (p : Fin 512) (q : Fin 768) : S8192x6144.Idx := ((cfg0.win 5).blk t).view.emb (ix2 p q)

/-- Row p of the point's input block is the output entry's row of the flattened input. -/
theorem read_x (c : Dev nD) (t : Fin cfg0.N) (p : Fin 512) (q : Fin 768) (k : Fin 2048) :
    iblk m c 0 t (ix2 p k) = V m c main_v11 (ix2 (outIdx t p q 0) k) := by
  obtain ⟨e00, e01, e10, e11, e20, e21, e30, e31, e40, e41, b0, b1⟩ := index_facts t
  show V m c main_v11 (((cfg0.win 0).blk t).view.emb (ix2 p k)) = V m c main_v11 (ix2 (outIdx t p q 0) k)
  refine congrArg _ (funext fun a => Fin.ext ?_)
  match a with
  | ⟨0, _⟩ => show win0_0.index t (0 : Fin 2) * 512 + 1 * p.val = win0_5.index t (0 : Fin 2) * 512 + 1 * p.val; omega
  | ⟨1, _⟩ => show win0_0.index t (1 : Fin 2) * 2048 + 1 * k.val = k.val; omega

/-- Row q of the point's weight block is the output entry's column, as a row of the weight. -/
theorem read_w (c : Dev nD) (t : Fin cfg0.N) (p : Fin 512) (q : Fin 768) (k : Fin 2048) :
    iblk m c 1 t (ix2 q k) = V m c main_arg1 (ix2 (outIdx t p q 1) k) := by
  obtain ⟨e00, e01, e10, e11, e20, e21, e30, e31, e40, e41, b0, b1⟩ := index_facts t
  show V m c main_arg1 (((cfg0.win 1).blk t).view.emb (ix2 q k)) = V m c main_arg1 (ix2 (outIdx t p q 1) k)
  refine congrArg _ (funext fun a => Fin.ext ?_)
  match a with
  | ⟨0, _⟩ => show win0_1.index t (0 : Fin 2) * 768 + 1 * q.val = win0_5.index t (1 : Fin 2) * 768 + 1 * q.val; omega
  | ⟨1, _⟩ => show win0_1.index t (1 : Fin 2) * 2048 + 1 * k.val = k.val; omega

/-- Row q of the point's left-factor block is that same row of the left factor. -/
theorem read_l (c : Dev nD) (t : Fin cfg0.N) (p : Fin 512) (q : Fin 768) (a' : Fin 16) :
    iblk m c 2 t (ix2 q a') = V m c main_v8 (ix2 (outIdx t p q 1) a') := by
  obtain ⟨e00, e01, e10, e11, e20, e21, e30, e31, e40, e41, b0, b1⟩ := index_facts t
  show V m c main_v8 (((cfg0.win 2).blk t).view.emb (ix2 q a')) = V m c main_v8 (ix2 (outIdx t p q 1) a')
  refine congrArg _ (funext fun a => Fin.ext ?_)
  match a with
  | ⟨0, _⟩ => show win0_2.index t (0 : Fin 2) * 768 + 1 * q.val = win0_5.index t (1 : Fin 2) * 768 + 1 * q.val; omega
  | ⟨1, _⟩ => show win0_2.index t (1 : Fin 2) * 16 + 1 * a'.val = a'.val; omega

/-- The right factor's block is the whole right factor. -/
theorem read_r (c : Dev nD) (t : Fin cfg0.N) (a' : Fin 16) (k : Fin 2048) :
    iblk m c 3 t (ix2 a' k) = V m c main_v9 (ix2 a' k) := by
  obtain ⟨e00, e01, e10, e11, e20, e21, e30, e31, e40, e41, b0, b1⟩ := index_facts t
  show V m c main_v9 (((cfg0.win 3).blk t).view.emb (ix2 a' k)) = V m c main_v9 (ix2 a' k)
  refine congrArg _ (funext fun a => Fin.ext ?_)
  match a with
  | ⟨0, _⟩ => show win0_3.index t (0 : Fin 2) * 16 + 1 * a'.val = a'.val; omega
  | ⟨1, _⟩ => show win0_3.index t (1 : Fin 2) * 2048 + 1 * k.val = k.val; omega

/-- Column q of the point's bias block is the output entry's column of the bias row. -/
theorem read_b (c : Dev nD) (t : Fin cfg0.N) (p : Fin 512) (q : Fin 768) :
    iblk m c 4 t (ix2 (0 : Fin 1) q) = V m c main_v12 (ix2 (0 : Fin 1) (outIdx t p q 1)) := by
  obtain ⟨e00, e01, e10, e11, e20, e21, e30, e31, e40, e41, b0, b1⟩ := index_facts t
  show V m c main_v12 (((cfg0.win 4).blk t).view.emb (ix2 (0 : Fin 1) q)) = V m c main_v12 (ix2 (0 : Fin 1) (outIdx t p q 1))
  refine congrArg _ (funext fun a => Fin.ext ?_)
  match a with
  | ⟨0, _⟩ => show win0_4.index t (0 : Fin 2) * 1 + 1 * 0 = 0; omega
  | ⟨1, _⟩ => show win0_4.index t (1 : Fin 2) * 768 + 1 * q.val = win0_5.index t (1 : Fin 2) * 768 + 1 * q.val; omega

/-- What point `t` writes back is its block of `launchOut`. -/
theorem flushed_eq (c : Dev nD) (t : Fin cfg0.N) :
    (dats m 0 c).flushed 5 t = ((cfg0.win 5).blk t).view.read (Elt Ideal)
      (launchOut (V m c main_v11) (V m c main_arg1) (V m c main_v8) (V m c main_v9) (V m c main_v12)) := by
  show (cfg0.win 5).cut (grid0.coords t) ((dats m 0 c).after 5 t) = _
  rw [after5]
  funext j
  obtain ⟨p, q, rfl⟩ : ∃ (p : Fin 512) (q : Fin 768), j = ix2 p q := ⟨j 0, j 1, eq_ix2 j⟩
  refine (blockOut_apply (iblk m c 0 t) (iblk m c 1 t) (iblk m c 2 t) (iblk m c 3 t) (iblk m c 4 t) p q).trans ?_
  show _ = launchOut (V m c main_v11) (V m c main_arg1) (V m c main_v8) (V m c main_v9) (V m c main_v12) (outIdx t p q)
  unfold launchOut
  refine congrArg₂ (· + ·) (Finset.sum_congr rfl fun k _ => ?_) (read_b m c t p q)
  refine congrArg₂ (· * ·) (read_x m c t p q k) (congrArg₂ (· + ·) (read_w m c t p q k) (Finset.sum_congr rfl fun a _ => ?_))
  exact congrArg₂ (· * ·) (read_l m c t p q a) (read_r m c t a k)

/-- An entry of the result array lies in point `t`'s block iff each coordinate lies in the block's range. -/
theorem mem_blk (t : Fin cfg0.N) (i : S8192x6144.Idx) :
    i ∈ ((cfg0.win 5).blk t).view.set ↔ ∀ a : Fin 2, win0_5.index t a * S512x768.size a ≤ (i a).val ∧ (i a).val < win0_5.index t a * S512x768.size a + S512x768.size a := by
  show i ∈ ((View.whole main_v13).slice (win0_5.rect t)).set ↔ _
  rw [View.set_slice_whole, Rect.mem_set_unit]
  exact Iff.rfl

/-- The blocks tile the array: entry (u, o) lies in the block with indices (u / 512, o / 768). -/
theorem cover (i : S8192x6144.Idx) : ∃ t : Fin cfg0.N, (cfg0.win 5).flush t = true ∧ i ∈ ((cfg0.win 5).blk t).view.set := by
  have hi0 : (i 0).val < 8192 := (i 0).isLt
  have hi1 : (i 1).val < 6144 := (i 1).isLt
  obtain ⟨t, ht⟩ := index_onto ⟨(i 0).val / 512, by omega⟩ ⟨(i 1).val / 768, by omega⟩
  have q0 : win0_5.index t (0 : Fin 2) = (i 0).val / 512 := congrFun ht 0
  have q1 : win0_5.index t (1 : Fin 2) = (i 1).val / 768 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 768 ≤ (i 1).val ∧ (i 1).val < win0_5.index t (1 : Fin 2) * 768 + 768; omega

/-- The result array after the launch. -/
theorem final (c : Dev nD) : (dats m 0 c).arrAt 5 cfg0.N
    = launchOut (V m c main_v11) (V m c main_arg1) (V m c main_v8) (V m c main_v9) (V m c main_v12) :=
  (dats m 0 c).arrAt_eq_of_cover 5 _ (fun t _ => flushed_eq m c t) cover

end Cert.KernelIdeal.LaunchValue

end
-- ==== Proof.HostValue.lean ====
/-
  The arrays the launch is handed, as the host operations before it build them from the arguments, each read at one
  entry (on the extended reals, where a change of float format is the identity).

  * the input [4,2048,2048] flattened to [8192,2048]: row 2048·β + s is row s of batch β;
  * the bias [6144] as a row [1,6144];
  * the right factor [16,2048]: A1's eight rows on top of A2's;
  * the left factor [6144,16]: 2048 zero rows; then 2048 rows (1·B1 | 0); then 2048 rows (0 | 1·B2) — so that the left
    factor times the right factor is the stacked low-rank correction (0 ; B1·A1 ; B2·A2).
-/
import proofs.«148041_j74534862455241_2_alg».proof.Proof.FrameKernelIdeal
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

namespace Cert.KernelIdeal.HostValue

open Cert.KernelIdeal Cert.KernelIdeal.Gen Cert.KernelIdeal.Around
open Idealize.ShloMosaic Idealize.ShloMosaic.TcCoe Idealize.ShloMosaic.ValueIdx Idealize.SL.Sem

variable (m : (ℓ : Loc nD τ sig) → Buf (Elt Ideal) ℓ)

/-! ## The arrays as terms -/

abbrev zeros8 : FVec Ideal S2048x8 .f32 := broadcastInDim S2048x8 ![] bcast_S_S2048x8 (constant (F := Ideal) S_ .f32 0x00000000#32)
abbrev zeros16 : FVec Ideal S2048x16 .f32 := broadcastInDim S2048x16 ![] bcast_S_S2048x16 (constant (F := Ideal) S_ .f32 0x00000000#32)
abbrev ones8 : FVec Ideal S2048x8 .f32 := broadcastInDim S2048x8 ![] bcast_S_S2048x8 (constant (F := Ideal) S_ .f32 0x3F800000#32)

/-- The middle rows of the left factor: (1·B1 | 0). -/
def midRows (B1 : FVec Ideal S2048x8 .f32) : FVec Ideal S2048x16 .f32 :=
  concatenate S2048x16 1 [⟨S2048x8, mulf ones8 B1⟩, ⟨S2048x8, zeros8⟩] concatenates_S2048x8_S2048x8_S2048x16_d1
/-- The bottom rows of the left factor: (0 | 1·B2). -/
def botRows (B2 : FVec Ideal S2048x8 .f32) : FVec Ideal S2048x16 .f32 :=
  concatenate S2048x16 1 [⟨S2048x8, zeros8⟩, ⟨S2048x8, mulf ones8 B2⟩] concatenates_S2048x8_S2048x8_S2048x16_d1
/-- The left factor. -/
def leftFactor (B1 B2 : FVec Ideal S2048x8 .f32) : FVec Ideal S6144x16 .f32 :=
  concatenate S6144x16 0 [⟨S2048x16, zeros16⟩, ⟨S2048x16, midRows B1⟩, ⟨S2048x16, botRows B2⟩] concatenates_S2048x16_S2048x16_S2048x16_S6144x16_d0
/-- The right factor. -/
def rightFactor (A1 A2 : FVec Ideal S8x2048 .f32) : FVec Ideal S16x2048 .f32 :=
  concatenate S16x2048 0 [⟨S8x2048, A1⟩, ⟨S8x2048, A2⟩] concatenates_S8x2048_S8x2048_S16x2048_d0

theorem V_left (c : Dev nD) : V m c main_v8 = leftFactor (m ((c : Thread nD τ).loc main_arg4)) (m ((c : Thread nD τ).loc main_arg6)) := by
  show StableHlo.after hostOps0 (fun b => m (c, b)) (Proc.devRef .tc main_v8) = _
  after_results
  rfl
theorem V_right (c : Dev nD) : V m c main_v9 = rightFactor (m ((c : Thread nD τ).loc main_arg3)) (m ((c : Thread nD τ).loc main_arg5)) := by
  show StableHlo.after hostOps0 (fun b => m (c, b)) (Proc.devRef .tc main_v9) = _
  after_results
  rfl
theorem V_input (c : Dev nD) : V m c main_v11 = (truncf (F := Ideal) .bf16 (shapeCast S8192x2048 (m ((c : Thread nD τ).loc main_arg0)) shapeCasts_S4x2048x2048_S8192x2048) bitsLt_bf16_f32 : FVec Ideal S8192x2048 .bf16) := by
  show StableHlo.after hostOps0 (fun b => m (c, b)) (Proc.devRef .tc main_v11) = _
  after_results
  rfl
theorem V_bias (c : Dev nD) : V m c main_v12 = shapeCast S1x6144 (m ((c : Thread nD τ).loc main_arg2)) shapeCasts_S6144_S1x6144 := by
  show StableHlo.after hostOps0 (fun b => m (c, b)) (Proc.devRef .tc main_v12) = _
  after_results
  rfl

/-! ## Read at an entry -/

/-- Row 2048·β + s of the flattened input is row s of batch β. -/
theorem input_apply (x : FVec Ideal S4x2048x2048 .f32) (β : Fin 4) (s : Fin 2048) (k : Fin 2048) (u : Fin 8192) (hu : u.val = β.val * 2048 + s.val) :
    (truncf .bf16 (shapeCast S8192x2048 x shapeCasts_S4x2048x2048_S8192x2048) bitsLt_bf16_f32 : FVec Ideal S8192x2048 .bf16) (ix2 u k) = x (ix3 β s k) := by
  rw [truncf_apply]
  refine shapeCast_apply x shapeCasts_S4x2048x2048_S8192x2048 (ix2 u k) (ix3 β s k) ?_
  rw [Shape.rowMajor_val_three, Shape.rowMajor_val_two]
  show (β.val * 2048 + s.val) * 2048 + k.val = u.val * 2048 + k.val
  rw [hu]

/-- The bias row at column o is the bias at o. -/
theorem bias_apply (b : FVec Ideal S6144 .f32) (o : Fin 6144) :
    (shapeCast S1x6144 b shapeCasts_S6144_S1x6144 : FVec Ideal S1x6144 .f32) (ix2 (0 : Fin 1) o) = b (ix1 o) :=
  shapeCast_a_1a_apply b shapeCasts_S6144_S1x6144 0 o

/-- The right factor's first eight rows are A1's, -/
theorem right_top (A1 A2 : FVec Ideal S8x2048 .f32) (a16 : Fin 16) (a : Fin 8) (h : a16.val = a.val) (k : Fin 2048) :
    rightFactor A1 A2 (ix2 a16 k) = A1 (ix2 a k) := by
  unfold rightFactor
  refine concatenate_pair_apply_left (0 : Fin 2) A1 A2 concatenates_S8x2048_S8x2048_S16x2048_d0 (ix2 a16 k) rfl (ix2 a k) fun d => ?_
  match d with
  | ⟨0, _⟩ => exact h.symm
  | ⟨1, _⟩ => rfl
/-- and its last eight are A2's. -/
theorem right_bot (A1 A2 : FVec Ideal S8x2048 .f32) (a16 : Fin 16) (a : Fin 8) (h : a16.val = 8 + a.val) (k : Fin 2048) :
    rightFactor A1 A2 (ix2 a16 k) = A2 (ix2 a k) := by
  unfold rightFactor
  refine concatenate_pair_apply_right (0 : Fin 2) A1 A2 concatenates_S8x2048_S8x2048_S16x2048_d0 (ix2 a16 k) rfl rfl (ix2 a k) (fun d hd => ?_) ?_
  · match d with
    | ⟨0, _⟩ => exact absurd rfl hd
    | ⟨1, _⟩ => rfl
  · show a.val + 8 = a16.val
    omega

theorem zeros8_apply (j : S2048x8.Idx) : zeros8 j = 0 := by
  show broadcastInDim S2048x8 ![] bcast_S_S2048x8 (constant (F := Ideal) S_ .f32 0x00000000#32) j = 0
  rw [broadcastInDim_scalar_apply]; exact Ideal.ofBits_zero_f32
theorem zeros16_apply (j : S2048x16.Idx) : zeros16 j = 0 := by
  show broadcastInDim S2048x16 ![] bcast_S_S2048x16 (constant (F := Ideal) S_ .f32 0x00000000#32) j = 0
  rw [broadcastInDim_scalar_apply]; exact Ideal.ofBits_zero_f32
theorem ones8_apply (j : S2048x8.Idx) : ones8 j = 1 := by
  show broadcastInDim S2048x8 ![] bcast_S_S2048x8 (constant (F := Ideal) S_ .f32 0x3F800000#32) j = 1
  rw [broadcastInDim_scalar_apply]; exact Ideal.ofBits_one_f32

/-- The middle rows: B1 in the first eight columns, -/
theorem mid_left (B1 : FVec Ideal S2048x8 .f32) (o : Fin 2048) (a16 : Fin 16) (a : Fin 8) (h : a16.val = a.val) :
    midRows B1 (ix2 o a16) = B1 (ix2 o a) := by
  unfold midRows
  rw [concatenate_pair_apply_left (1 : Fin 2) (mulf ones8 B1) zeros8 concatenates_S2048x8_S2048x8_S2048x16_d1 (ix2 o a16) rfl (ix2 o a) (fun d => by
    match d with
    | ⟨0, _⟩ => rfl
    | ⟨1, _⟩ => exact h.symm)]
  rw [mulf_apply, ones8_apply, one_mul]
/-- zero in the last eight. -/
theorem mid_right (B1 : FVec Ideal S2048x8 .f32) (o : Fin 2048) (a16 : Fin 16) (a : Fin 8) (h : a16.val = 8 + a.val) :
    midRows B1 (ix2 o a16) = 0 := by
  unfold midRows
  rw [concatenate_pair_apply_right (1 : Fin 2) (mulf ones8 B1) zeros8 concatenates_S2048x8_S2048x8_S2048x16_d1 (ix2 o a16) rfl rfl (ix2 o a) (fun d hd => by
    match d with
    | ⟨0, _⟩ => rfl
    | ⟨1, _⟩ => exact absurd rfl hd) (by show a.val + 8 = a16.val; omega)]
  exact zeros8_apply _
/-- The bottom rows: zero in the first eight columns, -/
theorem bot_left (B2 : FVec Ideal S2048x8 .f32) (o : Fin 2048) (a16 : Fin 16) (a : Fin 8) (h : a16.val = a.val) :
    botRows B2 (ix2 o a16) = 0 := by
  unfold botRows
  rw [concatenate_pair_apply_left (1 : Fin 2) zeros8 (mulf ones8 B2) concatenates_S2048x8_S2048x8_S2048x16_d1 (ix2 o a16) rfl (ix2 o a) (fun d => by
    match d with
    | ⟨0, _⟩ => rfl
    | ⟨1, _⟩ => exact h.symm)]
  exact zeros8_apply _
/-- B2 in the last eight. -/
theorem bot_right (B2 : FVec Ideal S2048x8 .f32) (o : Fin 2048) (a16 : Fin 16) (a : Fin 8) (h : a16.val = 8 + a.val) :
    botRows B2 (ix2 o a16) = B2 (ix2 o a) := by
  unfold botRows
  rw [concatenate_pair_apply_right (1 : Fin 2) zeros8 (mulf ones8 B2) concatenates_S2048x8_S2048x8_S2048x16_d1 (ix2 o a16) rfl rfl (ix2 o a) (fun d hd => by
    match d with
    | ⟨0, _⟩ => rfl
    | ⟨1, _⟩ => exact absurd rfl hd) (by show a.val + 8 = a16.val; omega)]
  rw [mulf_apply, ones8_apply, one_mul]

/-- The left factor's rows: the first 2048 are zero, -/
theorem left_top (B1 B2 : FVec Ideal S2048x8 .f32) (o : Fin 6144) (ho : o.val < 2048) (a16 : Fin 16) :
    leftFactor B1 B2 (ix2 o a16) = 0 := by
  unfold leftFactor
  rw [concatenate_apply_piece (t := S6144x16) (α := Ideal .f32) (0 : Fin 2) ([⟨S2048x16, zeros16⟩, ⟨S2048x16, midRows B1⟩, ⟨S2048x16, botRows B2⟩] : List ((s : Shape) × (s.Idx → Ideal .f32))) concatenates_S2048x16_S2048x16_S2048x16_S6144x16_d0 (ix2 o a16) 0 (by show (0 : ℕ) < 3; omega) S2048x16 zeros16 rfl rfl 0 rfl (ix2 ⟨o.val, ho⟩ a16)
    (fun d hd => by
      match d with
      | ⟨0, _⟩ => exact absurd rfl hd
      | ⟨1, _⟩ => rfl) (by show 0 + o.val = o.val; omega)]
  exact zeros16_apply _
/-- the next 2048 are the middle rows, -/
theorem left_mid (B1 B2 : FVec Ideal S2048x8 .f32) (o : Fin 6144) (o' : Fin 2048) (ho : o.val = 2048 + o'.val) (a16 : Fin 16) :
    leftFactor B1 B2 (ix2 o a16) = midRows B1 (ix2 o' a16) := by
  unfold leftFactor
  exact concatenate_apply_piece (t := S6144x16) (α := Ideal .f32) (0 : Fin 2) ([⟨S2048x16, zeros16⟩, ⟨S2048x16, midRows B1⟩, ⟨S2048x16, botRows B2⟩] : List ((s : Shape) × (s.Idx → Ideal .f32))) concatenates_S2048x16_S2048x16_S2048x16_S6144x16_d0 (ix2 o a16) 1 (by show (1 : ℕ) < 3; omega) S2048x16 (midRows B1) rfl rfl 2048 rfl (ix2 o' a16)
    (fun d hd => by
      match d with
      | ⟨0, _⟩ => exact absurd rfl hd
      | ⟨1, _⟩ => rfl) (by show 2048 + o'.val = o.val; omega)
/-- the last 2048 the bottom rows. -/
theorem left_bot (B1 B2 : FVec Ideal S2048x8 .f32) (o : Fin 6144) (o' : Fin 2048) (ho : o.val = 4096 + o'.val) (a16 : Fin 16) :
    leftFactor B1 B2 (ix2 o a16) = botRows B2 (ix2 o' a16) := by
  unfold leftFactor
  exact concatenate_apply_piece (t := S6144x16) (α := Ideal .f32) (0 : Fin 2) ([⟨S2048x16, zeros16⟩, ⟨S2048x16, midRows B1⟩, ⟨S2048x16, botRows B2⟩] : List ((s : Shape) × (s.Idx → Ideal .f32))) concatenates_S2048x16_S2048x16_S2048x16_S6144x16_d0 (ix2 o a16) 2 (by show (2 : ℕ) < 3; omega) S2048x16 (botRows B2) rfl rfl 4096 rfl (ix2 o' a16)
    (fun d hd => by
      match d with
      | ⟨0, _⟩ => exact absurd rfl hd
      | ⟨1, _⟩ => rfl) (by show 4096 + o'.val = o.val; omega)

end Cert.KernelIdeal.HostValue

end
-- ==== Proof.KernelRun.lean ====
/-
  The kernel program's run with its result named: every weakly fair execution terminates with the result buffer at the
  reshape, to [4,2048,6144], of the launch's array [8192,6144] of the operands the host prepared from the arguments —
  and with the seven arguments unchanged.
-/
import proofs.«148041_j74534862455241_2_alg».proof.Proof.LaunchValue
import proofs.«148041_j74534862455241_2_alg».proof.Proof.HostValue

noncomputable section

namespace Cert.KernelIdeal.Result

open Cert.KernelIdeal Cert.KernelIdeal.Gen Cert.KernelIdeal.Around Cert.KernelIdeal.LaunchValue Cert.KernelIdeal.HostValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result as a function of the seven arguments. -/
def result (x0 : FVec Ideal S4x2048x2048 .f32) (x1 : FVec Ideal S6144x2048 .f32) (x2 : FVec Ideal S6144 .f32)
    (x3 : FVec Ideal S8x2048 .f32) (x4 : FVec Ideal S2048x8 .f32) (x5 : FVec Ideal S8x2048 .f32) (x6 : FVec Ideal S2048x8 .f32) :
    FVec Ideal S4x2048x6144 .f32 :=
  shapeCast S4x2048x6144
    (launchOut (truncf (F := Ideal) .bf16 (shapeCast S8192x2048 x0 shapeCasts_S4x2048x2048_S8192x2048) bitsLt_bf16_f32) x1
      (leftFactor x4 x6) (rightFactor x3 x5) (shapeCast S1x6144 x2 shapeCasts_S6144_S1x6144))
    shapeCasts_S8192x6144_S4x2048x6144

/-- After the reshape that follows the launch, the result buffer holds the launch's array reshaped. -/
theorem tail_eq (c : Dev nD) :
    Pipeline.afterTail₀ cfgs (dats m) 0 (V0 m) [hostOps1] c main_v14
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have e := (Pipeline.withArrays_arr spec0 launch0.win.arr_inj c (V0 m c) (fun w => (dats m 0 c).arrAt w cfg0.N) 5).trans (final m c)
  rw [V_input, V_main_arg1, V_left, V_right, V_bias] at e
  unfold Pipeline.afterTail₀
  show StableHlo.after hostOps1 _ (Proc.devRef .tc main_v14) = _
  after_results
  exact congrArg (fun z : FVec Ideal S8192x6144 .f32 =>
    (shapeCast S4x2048x6144 z shapeCasts_S8192x6144_S4x2048x6144 : FVec Ideal S4x2048x6144 .f32)) e

/-- The run. -/
theorem run : θ_run defs (onTc (τ := τ) (main (F := Ideal))) ⟨m, fun _ => 0, ρ⟩ fun r => ∀ c : Dev nD,
      r.2.mem ((c.tc : Thread nD τ).loc main_v14)
        = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      ((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.SumSplit.lean ====
/-
  One law of sums over the extended reals: a product-sum over sixteen indices in which the left terms vanish on one
  half is the product-sum over the other half. (A zero factor makes a product zero for EVERY extended real, the
  infinities included, and zero is neutral for addition, so nothing here needs the entries to be finite.)

  This is what makes the zero-padded factors of rank sixteen compute the stacked rank-eight products:
  (0 | …) rows give 0, (b | 0) rows give ∑ b·a over the first eight, (0 | b) rows over the last eight.
-/
import Idealize.ShloMosaic.PureOps.Ideal.Laws

namespace Cert.SumSplit

open scoped BigOperators

/-- A sum over sixteen is the sum over the first eight plus the sum over the last eight. -/
theorem sum_sixteen (f : Fin 16 → EReal) :
    ∑ a : Fin 16, f a = ∑ a : Fin 8, f (Fin.castAdd 8 a) + ∑ a : Fin 8, f (Fin.natAdd 8 a) :=
  Fin.sum_univ_add (a := 8) (b := 8) f

/-- All left terms zero: the sum is zero. -/
theorem all_zero (L R : Fin 16 → EReal) (hL : ∀ a, L a = 0) : ∑ a : Fin 16, L a * R a = 0 :=
  Finset.sum_eq_zero fun a _ => by rw [hL a, zero_mul]

/-- Left terms supported on the first eight indices. -/
theorem first_half (L R : Fin 16 → EReal) (b r : Fin 8 → EReal)
    (h1 : ∀ a : Fin 8, L (Fin.castAdd 8 a) = b a) (h2 : ∀ a : Fin 8, L (Fin.natAdd 8 a) = 0)
    (h3 : ∀ a : Fin 8, R (Fin.castAdd 8 a) = r a) :
    ∑ a : Fin 16, L a * R a = ∑ a : Fin 8, b a * r a := by
  rw [sum_sixteen]
  have hz : ∑ a : Fin 8, L (Fin.natAdd 8 a) * R (Fin.natAdd 8 a) = 0 :=
    Finset.sum_eq_zero fun a _ => by rw [h2 a, zero_mul]
  rw [hz, add_zero]
  exact Finset.sum_congr rfl fun a _ => by rw [h1 a, h3 a]

/-- Left terms supported on the last eight indices. -/
theorem second_half (L R : Fin 16 → EReal) (b r : Fin 8 → EReal)
    (h1 : ∀ a : Fin 8, L (Fin.castAdd 8 a) = 0) (h2 : ∀ a : Fin 8, L (Fin.natAdd 8 a) = b a)
    (h3 : ∀ a : Fin 8, R (Fin.natAdd 8 a) = r a) :
    ∑ a : Fin 16, L a * R a = ∑ a : Fin 8, b a * r a := by
  rw [sum_sixteen]
  have hz : ∑ a : Fin 8, L (Fin.castAdd 8 a) * R (Fin.castAdd 8 a) = 0 :=
    Finset.sum_eq_zero fun a _ => by rw [h1 a, zero_mul]
  rw [hz, zero_add]
  exact Finset.sum_congr rfl fun a _ => by rw [h2 a, h3 a]

end Cert.SumSplit
-- ==== Proof.Bridge.lean ====
/-
  The two programs compute one function of the arguments.

  Entry (β, s, o) of the kernel program's result is entry (2048·β + s, o) of the launch's array:

      ∑ₖ x[β,s,k] · ( W[o,k] + ∑ₐ L[o,a] · R[a,k] ) + b[o],     a over sixteen indices,

  with L the zero-padded left factor and R the stacked right factor. The reference's is

      ∑ₖ x[β,s,k] · ( W[o,k] + Δ[o,k] ) + b[o],     Δ = ( 0 ; 1·(B1·A1) ; 1·(B2·A2) ) stacked by rows.

  So the claim is ∑ₐ L[o,a]·R[a,k] = Δ[o,k], by the row block o lies in: zero rows give zero; in the middle block the
  last eight left entries are zero and the first eight are 1·B1[o−2048, ·], meeting A1's rows; in the bottom block the
  first eight are zero and the last eight are 1·B2[o−4096, ·], meeting A2's rows. The only laws used are 0·a = 0,
  1·a = a and a + 0 = a, which hold for every extended real: the inputs' finiteness is not needed.
-/
import proofs.«148041_j74534862455241_2_alg».proof.Proof.LaunchValue
import proofs.«148041_j74534862455241_2_alg».proof.Proof.HostValue
import proofs.«148041_j74534862455241_2_alg».proof.Proof.SumSplit
import proofs.«148041_j74534862455241_2_alg».proof.Proof.Gen.ReferenceIdeal.Read

noncomputable section

namespace Cert.Bridge

open Cert.KernelIdeal Cert.KernelIdeal.Gen Cert.KernelIdeal.LaunchValue Cert.KernelIdeal.HostValue
open Cert.ReferenceIdeal.Read
open Idealize.ShloMosaic Idealize.ShloMosaic.ValueIdx

variable (x0 : FVec Ideal S4x2048x2048 .f32) (x1 : FVec Ideal S6144x2048 .f32) (x2 : FVec Ideal S6144 .f32)
  (x3 : FVec Ideal S8x2048 .f32) (x4 : FVec Ideal S2048x8 .f32) (x5 : FVec Ideal S8x2048 .f32) (x6 : FVec Ideal S2048x8 .f32)

/-! ## The reference's stacked correction Δ, by row block -/

/-- The first 2048 rows of Δ are zero. -/
theorem ref_top (o : Fin 6144) (ho : o.val < 2048) (k : Fin 2048) :
    val_main_v8 (F := Ideal) x3 x4 x5 x6 (ix2 o k) = 0 := by
  unfold val_main_v8
  rw [concatenate_pair_apply_left (0 : Fin 2) (val_main_v7 (F := Ideal)) (val_main_v6 (F := Ideal) x3 x4 x5 x6) _ (ix2 o k) rfl
    (ix2 (⟨o.val, ho⟩ : Fin 2048) k) (fun d => by
      match d with
      | ⟨0, _⟩ => rfl
      | ⟨1, _⟩ => rfl)]
  rw [val_main_v7_apply, val_main_cst_1_apply]
  exact Ideal.ofBits_zero_f32

/-- Row 2048 + o' of Δ is row o' of B1·A1 (times one). -/
theorem ref_mid (o : Fin 6144) (o' : Fin 2048) (ho : o.val = 2048 + o'.val) (k : Fin 2048) :
    val_main_v8 (F := Ideal) x3 x4 x5 x6 (ix2 o k) = ∑ a : Fin 8, x4 (ix2 o' a) * x3 (ix2 a k) := by
  have h4 : o'.val < 4096 := by have := o'.isLt; omega
  unfold val_main_v8
  rw [concatenate_pair_apply_right (0 : Fin 2) (val_main_v7 (F := Ideal)) (val_main_v6 (F := Ideal) x3 x4 x5 x6) _ (ix2 o k) rfl rfl
    (ix2 (⟨o'.val, h4⟩ : Fin 4096) k) (fun d hd => by
      match d with
      | ⟨0, _⟩ => exact absurd rfl hd
      | ⟨1, _⟩ => rfl) (by show o'.val + 2048 = o.val; omega)]
  unfold val_main_v6
  rw [concatenate_pair_apply_left (0 : Fin 2) (val_main_v2 (F := Ideal) x3 x4) (val_main_v5 (F := Ideal) x5 x6) _ (ix2 (⟨o'.val, h4⟩ : Fin 4096) k) rfl
    (ix2 o' k) (fun d => by
      match d with
      | ⟨0, _⟩ => rfl
      | ⟨1, _⟩ => rfl)]
  rw [val_main_v2_apply, val_main_v1_apply, val_main_cst_apply, val_main_v0_apply, Ideal.ofBits_def, Ideal.ofBits_one_f32, Ideal.mulf_def, one_mul]
  refine Finset.sum_congr rfl fun a _ => ?_
  have e1 : lidx_main_v0 (ix2 o' k) a = ix2 o' a := funext (fun d => by
      match d with
      | ⟨0, _⟩ => rfl
      | ⟨1, _⟩ => rfl)
  have e2 : ridx_main_v0 (ix2 o' k) a = ix2 a k := funext (fun d => by
      match d with
      | ⟨0, _⟩ => rfl
      | ⟨1, _⟩ => rfl)
  rw [e1, e2]

/-- Row 4096 + o' of Δ is row o' of B2·A2 (times one). -/
theorem ref_bot (o : Fin 6144) (o' : Fin 2048) (ho : o.val = 4096 + o'.val) (k : Fin 2048) :
    val_main_v8 (F := Ideal) x3 x4 x5 x6 (ix2 o k) = ∑ a : Fin 8, x6 (ix2 o' a) * x5 (ix2 a k) := by
  have h4 : 2048 + o'.val < 4096 := by have := o'.isLt; omega
  unfold val_main_v8
  rw [concatenate_pair_apply_right (0 : Fin 2) (val_main_v7 (F := Ideal)) (val_main_v6 (F := Ideal) x3 x4 x5 x6) _ (ix2 o k) rfl rfl
    (ix2 (⟨2048 + o'.val, h4⟩ : Fin 4096) k) (fun d hd => by
      match d with
      | ⟨0, _⟩ => exact absurd rfl hd
      | ⟨1, _⟩ => rfl) (by show 2048 + o'.val + 2048 = o.val; omega)]
  unfold val_main_v6
  rw [concatenate_pair_apply_right (0 : Fin 2) (val_main_v2 (F := Ideal) x3 x4) (val_main_v5 (F := Ideal) x5 x6) _ (ix2 (⟨2048 + o'.val, h4⟩ : Fin 4096) k) rfl rfl
    (ix2 o' k) (fun d hd => by
      match d with
      | ⟨0, _⟩ => exact absurd rfl hd
      | ⟨1, _⟩ => rfl) (by show o'.val + 2048 = 2048 + o'.val; omega)]
  rw [val_main_v5_apply, val_main_v4_apply, val_main_cst_0_apply, val_main_v3_apply, Ideal.ofBits_def, Ideal.ofBits_one_f32, Ideal.mulf_def, one_mul]
  refine Finset.sum_congr rfl fun a _ => ?_
  have e1 : lidx_main_v3 (ix2 o' k) a = ix2 o' a := funext (fun d => by
      match d with
      | ⟨0, _⟩ => rfl
      | ⟨1, _⟩ => rfl)
  have e2 : ridx_main_v3 (ix2 o' k) a = ix2 a k := funext (fun d => by
      match d with
      | ⟨0, _⟩ => rfl
      | ⟨1, _⟩ => rfl)
  rw [e1, e2]

/-! ## The kernel's rank-sixteen product, by row block -/

theorem ker_top (o : Fin 6144) (ho : o.val < 2048) (k : Fin 2048) :
    ∑ a : Fin 16, leftFactor x4 x6 (ix2 o a) * rightFactor x3 x5 (ix2 a k) = 0 :=
  Cert.SumSplit.all_zero (fun a => leftFactor x4 x6 (ix2 o a)) (fun a => rightFactor x3 x5 (ix2 a k)) fun a => left_top x4 x6 o ho a

theorem ker_mid (o : Fin 6144) (o' : Fin 2048) (ho : o.val = 2048 + o'.val) (k : Fin 2048) :
    ∑ a : Fin 16, leftFactor x4 x6 (ix2 o a) * rightFactor x3 x5 (ix2 a k) = ∑ a : Fin 8, x4 (ix2 o' a) * x3 (ix2 a k) :=
  Cert.SumSplit.first_half (fun a => leftFactor x4 x6 (ix2 o a)) (fun a => rightFactor x3 x5 (ix2 a k))
    (fun a => x4 (ix2 o' a)) (fun a => x3 (ix2 a k))
    (fun a => (left_mid x4 x6 o o' ho (Fin.castAdd 8 a)).trans (mid_left x4 o' (Fin.castAdd 8 a) a rfl))
    (fun a => (left_mid x4 x6 o o' ho (Fin.natAdd 8 a)).trans (mid_right x4 o' (Fin.natAdd 8 a) a rfl))
    (fun a => right_top x3 x5 (Fin.castAdd 8 a) a rfl k)

theorem ker_bot (o : Fin 6144) (o' : Fin 2048) (ho : o.val = 4096 + o'.val) (k : Fin 2048) :
    ∑ a : Fin 16, leftFactor x4 x6 (ix2 o a) * rightFactor x3 x5 (ix2 a k) = ∑ a : Fin 8, x6 (ix2 o' a) * x5 (ix2 a k) :=
  Cert.SumSplit.second_half (fun a => leftFactor x4 x6 (ix2 o a)) (fun a => rightFactor x3 x5 (ix2 a k))
    (fun a => x6 (ix2 o' a)) (fun a => x5 (ix2 a k))
    (fun a => (left_bot x4 x6 o o' ho (Fin.castAdd 8 a)).trans (bot_left x6 o' (Fin.castAdd 8 a) a rfl))
    (fun a => (left_bot x4 x6 o o' ho (Fin.natAdd 8 a)).trans (bot_right x6 o' (Fin.natAdd 8 a) a rfl))
    (fun a => right_bot x3 x5 (Fin.natAdd 8 a) a rfl k)

/-- The rank-sixteen product of the padded factors IS the reference's stacked correction, entry by entry. -/
theorem delta_eq (o : Fin 6144) (k : Fin 2048) :
    ∑ a : Fin 16, leftFactor x4 x6 (ix2 o a) * rightFactor x3 x5 (ix2 a k) = val_main_v8 (F := Ideal) x3 x4 x5 x6 (ix2 o k) := by
  have hlt := o.isLt
  by_cases h1 : o.val < 2048
  · rw [ker_top x3 x4 x5 x6 o h1 k, ref_top x3 x4 x5 x6 o h1 k]
  · by_cases h2 : o.val < 4096
    · have ho : o.val = 2048 + (⟨o.val - 2048, by omega⟩ : Fin 2048).val := by show o.val = 2048 + (o.val - 2048); omega
      rw [ker_mid x3 x4 x5 x6 o _ ho k, ref_mid x3 x4 x5 x6 o _ ho k]
    · have ho : o.val = 4096 + (⟨o.val - 4096, by omega⟩ : Fin 2048).val := by show o.val = 4096 + (o.val - 4096); omega
      rw [ker_bot x3 x4 x5 x6 o _ ho k, ref_bot x3 x4 x5 x6 o _ ho k]

/-! ## The results -/

/-- The kernel program's result — the launch's array of the prepared operands, reshaped to [4,2048,6144] — is the
    reference's composed stage of the same arguments. -/
theorem out_eq :
    (shapeCast S4x2048x6144
        (launchOut (truncf (F := Ideal) .bf16 (shapeCast S8192x2048 x0 shapeCasts_S4x2048x2048_S8192x2048) bitsLt_bf16_f32) x1
          (leftFactor x4 x6) (rightFactor x3 x5) (shapeCast S1x6144 x2 shapeCasts_S6144_S1x6144))
        shapeCasts_S8192x6144_S4x2048x6144 : FVec Ideal S4x2048x6144 .f32)
      = val_main_v13 (F := Ideal) x0 x1 x2 x3 x4 x5 x6 := by
  funext i
  obtain ⟨β, s, o, rfl⟩ : ∃ (β : Fin 4) (s : Fin 2048) (o : Fin 6144), i = ix3 β s o := ⟨i 0, i 1, i 2, eq_ix3 i⟩
  have hu : β.val * 2048 + s.val < 8192 := by have := β.isLt; have := s.isLt; omega
  rw [shapeCast_apply _ shapeCasts_S8192x6144_S4x2048x6144 (ix3 β s o) (ix2 (⟨β.val * 2048 + s.val, hu⟩ : Fin 8192) o)
    (by rw [Shape.rowMajor_val_two, Shape.rowMajor_val_three]; rfl)]
  rw [val_main_v13_apply, val_main_v10_apply, val_main_v12_apply, val_main_v11_apply, Ideal.addf_def]
  unfold launchOut
  refine congrArg₂ (· + ·) (Finset.sum_congr rfl fun k _ => congrArg₂ (· * ·) ?_ ?_) ?_
  · refine (input_apply x0 β s k (⟨β.val * 2048 + s.val, hu⟩ : Fin 8192) rfl).trans (congrArg x0 (funext fun d => ?_))
    match d with
    | ⟨0, _⟩ => rfl
    | ⟨1, _⟩ => rfl
    | ⟨2, _⟩ => rfl
  · have er : ridx_main_v10 (ix3 β s o) k = ix2 o k := funext (fun d => by
      match d with
      | ⟨0, _⟩ => rfl
      | ⟨1, _⟩ => rfl)
    rw [er, val_main_v9_apply, Ideal.addf_def]
    exact congrArg (x1 (ix2 o k) + ·) (delta_eq x3 x4 x5 x6 o k)
  · refine (bias_apply x2 o).trans (congrArg x2 (funext fun d => ?_))
    match d with
    | ⟨0, _⟩ => rfl

end Cert.Bridge

end
-- ==== Proof.lean ====
/-
  A dense layer with a low-rank weight correction, as a tiled kernel and as its plain reference:

      out[β,s,o] = ∑ₖ x[β,s,k] · ( W[o,k] + Δ[o,k] ) + b[o],     Δ = ( 0 ; B1·A1 ; B2·A2 ) stacked by rows (2048 each).

  The reference forms Δ (each product scaled by one) and adds it to W. The kernel never forms Δ: the host pads the
  factors to rank sixteen — left factor L = ( 0 ; (1·B1 | 0) ; (0 | 1·B2) ) of shape [6144,16], right factor
  R = ( A1 ; A2 ) of shape [16,2048] — and each of the 8 × 16 grid points computes, for its 512 rows of the flattened
  input and its 768 rows of W and L, the block x · (W + L·R)ᵀ + b. On the extended reals (where the change of float
  format on the way into the matrix unit is the identity) L·R = Δ entry by entry, by 0·a = 0, 1·a = a and a + 0 = a —
  laws that hold at the infinities too, so the inputs' finiteness is never used — and the 128 output blocks tile the
  result.

  The modules: FrameKernel / FrameKernelIdeal — each program runs to its end, faults nowhere, leaves its arguments alone,
  and every array the launch writes ends at its per-point description; BlockValue — one block's stored value at an
  entry; LaunchValue — from blocks to the whole array; HostValue — the operands the host prepares, at an entry;
  SumSplit — the sum over sixteen as two sums over eight; Bridge — the two results are one function; KernelRun — the
  kernel program's run with its result named. The reference's run and its stages are the generated modules.
-/
import proofs.«148041_j74534862455241_2_alg».proof.Defs
import proofs.«148041_j74534862455241_2_alg».proof.Proof.Gen.Kernel
import proofs.«148041_j74534862455241_2_alg».proof.Proof.Gen.KernelIdeal
import proofs.«148041_j74534862455241_2_alg».proof.Proof.Gen.ReferenceIdeal
import proofs.«148041_j74534862455241_2_alg».proof.Proof.Gen.ReferenceIdeal.Run
import proofs.«148041_j74534862455241_2_alg».proof.Proof.Gen.ReferenceIdeal.Read
import proofs.«148041_j74534862455241_2_alg».proof.Proof.Gen.Pre_finite_inputs
import proofs.«148041_j74534862455241_2_alg».proof.Proof.FrameKernel
import proofs.«148041_j74534862455241_2_alg».proof.Proof.FrameKernelIdeal
import proofs.«148041_j74534862455241_2_alg».proof.Proof.KernelRun
import proofs.«148041_j74534862455241_2_alg».proof.Proof.Bridge

noncomputable section

namespace Cert.Proof

open Idealize.ShloMosaic Idealize.SL.Sem

/-- The kernel program as printed runs, faults nowhere and leaves its arguments unchanged. -/
theorem frame_kernel : @Cert.frame_Kernel Cert.Kernel.Gen.facts Cert.Pre_finite_inputs.Gen.facts :=
  fun m ρ _ => Cert.Kernel.Around.frame m ρ

/-- So does its reading on the extended reals. -/
theorem frame_kernelIdeal : @Cert.frame_KernelIdeal Cert.KernelIdeal.Gen.facts Cert.Pre_finite_inputs.Gen.facts :=
  fun m ρ _ => Cert.KernelIdeal.Around.frame m ρ

/-- The reference is a straight line of host operations: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments both programs end with the same result: the kernel program's at the
    launch's array reshaped, the reference's at its composed stage, which are one function of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2, Cert.ReferenceIdeal.Read.val_main_v13_eq]
  exact (Cert.Bridge.out_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
